-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x8 : Shape := ⟨2, ![2048, 8]⟩
abbrev S64x100000 : Shape := ⟨2, ![64, 100000]⟩
abbrev S64 : Shape := ⟨1, ![64]⟩
abbrev S100000x512 : Shape := ⟨2, ![100000, 512]⟩
abbrev S100000 : Shape := ⟨1, ![100000]⟩
abbrev S_ : Shape := ⟨0, ![]⟩

class Facts : Prop where
  bcast_S_S64x100000 : S_.BroadcastsInDim S64x100000 (![] : Fin 0 → Fin S64x100000.rank)
  reducesTo_S64x100000_S_d0_1 : S64x100000.ReducesTo [0, 1] S_
  h_S_ : 0 < S_.numel
  bcast_S_S64 : S_.BroadcastsInDim S64 (![] : Fin 0 → Fin S64.rank)
  reducesTo_S64_S_d0 : S64.ReducesTo [0] S_
  bcast_S_S100000x512 : S_.BroadcastsInDim S100000x512 (![] : Fin 0 → Fin S100000x512.rank)
  reducesTo_S100000x512_S_d0_1 : S100000x512.ReducesTo [0, 1] S_
  bcast_S_S100000 : S_.BroadcastsInDim S100000 (![] : Fin 0 → Fin S100000.rank)
  reducesTo_S100000_S_d0 : S100000.ReducesTo [0] S_

variable [Facts]

def fn_part1 {F : FTy → Type} [FloatOps F] (main_v13 : IVec S_ 1) (main_v16 : IVec S100000 1) : IVec S_ 1 :=
  let main_c_5 : IVec S_ 1 := constantI S_ 1 1#1
  let main_v17 : IVec S_ 1 := (fun x v => Host.reduce IntOp.andi x v reducesTo_S100000_S_d0 h_S_) main_v16 main_c_5
  let main_v18 : IVec S_ 1 := andi main_v13 main_v17
  main_v18

def fn {F : FTy → Type} [FloatOps F] (main_arg0 : IVec S2048x8 32) (main_arg1 : FVec F S64x100000 .f32) (main_arg2 : FVec F S64 .f32) (main_arg3 : FVec F S100000x512 .f32) (main_arg4 : FVec F S100000 .f32) : IVec S_ 1 :=
  let main_v0 : FVec F S64x100000 .f32 := Host.absf main_arg1
  let main_cst : FVec F S_ .f32 := constant S_ .f32 0x7F800000#32
  let main_v1 : FVec F S64x100000 .f32 := broadcastInDim S64x100000 ![] bcast_S_S64x100000 main_cst
  let main_v2 : IVec S64x100000 1 := cmpf .olt main_v0 main_v1
  let main_c : IVec S_ 1 := constantI S_ 1 1#1
  let main_v3 : IVec S_ 1 := (fun x v => Host.reduce IntOp.andi x v reducesTo_S64x100000_S_d0_1 h_S_) main_v2 main_c
  let main_v4 : FVec F S64 .f32 := Host.absf main_arg2
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S100000x512 .f32 := Host.absf main_arg3
  let main_cst_2 : FVec F S_ .f32 := constant S_ .f32 0x7F800000#32
  let main_v10 : FVec F S100000x512 .f32 := broadcastInDim S100000x512 ![] bcast_S_S100000x512 main_cst_2
  let main_v11 : IVec S100000x512 1 := cmpf .olt main_v9 main_v10
  let main_c_3 : IVec S_ 1 := constantI S_ 1 1#1
  let main_v12 : IVec S_ 1 := (fun x v => Host.reduce IntOp.andi x v reducesTo_S100000x512_S_d0_1 h_S_) main_v11 main_c_3
  let main_v13 : IVec S_ 1 := andi main_v8 main_v12
  let main_v14 : FVec F S100000 .f32 := Host.absf main_arg4
  let main_cst_4 : FVec F S_ .f32 := constant S_ .f32 0x7F800000#32
  let main_v15 : FVec F S100000 .f32 := broadcastInDim S100000 ![] bcast_S_S100000 main_cst_4
  let main_v16 : IVec S100000 1 := cmpf .olt main_v14 main_v15
  fn_part1 (F := F) main_v13 main_v16
-- ==== Kernel.lean ====
abbrev S2048x8 : Shape := ⟨2, ![2048, 8]⟩
abbrev S64x100000 : Shape := ⟨2, ![64, 100000]⟩
abbrev S64 : Shape := ⟨1, ![64]⟩
abbrev S100000x512 : Shape := ⟨2, ![100000, 512]⟩
abbrev S100000 : Shape := ⟨1, ![100000]⟩
abbrev S100000x64 : Shape := ⟨2, ![100000, 64]⟩
abbrev S_ : Shape := ⟨0, ![]⟩
abbrev S2048x8x1 : Shape := ⟨3, ![2048, 8, 1]⟩
abbrev S2048x8x64 : Shape := ⟨3, ![2048, 8, 64]⟩
abbrev S1x1x64 : Shape := ⟨3, ![1, 1, 64]⟩
abbrev S2048x512 : Shape := ⟨2, ![2048, 512]⟩
abbrev S100352x512 : Shape := ⟨2, ![100352, 512]⟩
abbrev S100352 : Shape := ⟨1, ![100352]⟩
abbrev S1x100352 : Shape := ⟨2, ![1, 100352]⟩
abbrev S2048x100352 : Shape := ⟨2, ![2048, 100352]⟩
abbrev S1024x512 : Shape := ⟨2, ![1024, 512]⟩
abbrev S1x2048 : Shape := ⟨2, ![1, 2048]⟩
abbrev S1024x2048 : Shape := ⟨2, ![1024, 2048]⟩
abbrev S2048x100000 : Shape := ⟨2, ![2048, 100000]⟩

abbrev nBuf : Space → Nat
  | .hbm => 30
  | .vmem => 8
  | .smem => 0
  | _ => 0

abbrev bufTy : (tb : Table) → Fin (tcTables nBuf tb) → BufTy
  | .hbm, ⟨0, _⟩ => ⟨S2048x8, .i32⟩
  | .hbm, ⟨1, _⟩ => ⟨S64x100000, .f32⟩
  | .hbm, ⟨2, _⟩ => ⟨S64, .f32⟩
  | .hbm, ⟨3, _⟩ => ⟨S100000x512, .f32⟩
  | .hbm, ⟨4, _⟩ => ⟨S100000, .f32⟩
  | .hbm, ⟨5, _⟩ => ⟨S100000x64, .f32⟩
  | .hbm, ⟨6, _⟩ => ⟨S_, .i32⟩
  | .hbm, ⟨7, _⟩ => ⟨S2048x8, .i32⟩
  | .hbm, ⟨8, _⟩ => ⟨S2048x8, .i1⟩
  | .hbm, ⟨9, _⟩ => ⟨S_, .i32⟩
  | .hbm, ⟨10, _⟩ => ⟨S2048x8, .i32⟩
  | .hbm, ⟨11, _⟩ => ⟨S2048x8, .i32⟩
  | .hbm, ⟨12, _⟩ => ⟨S2048x8, .i32⟩
  | .hbm, ⟨13, _⟩ => ⟨S2048x8x1, .i32⟩
  | .hbm, ⟨14, _⟩ => ⟨S2048x8x64, .f32⟩
  | .hbm, ⟨15, _⟩ => ⟨S1x1x64, .f32⟩
  | .hbm, ⟨16, _⟩ => ⟨S2048x8x64, .f32⟩
  | .hbm, ⟨17, _⟩ => ⟨S2048x8x64, .f32⟩
  | .hbm, ⟨18, _⟩ => ⟨S2048x512, .f32⟩
  | .hbm, ⟨19, _⟩ => ⟨S_, .i32⟩
  | .hbm, ⟨20, _⟩ => ⟨S_, .f32⟩
  | .hbm, ⟨21, _⟩ => ⟨S100352x512, .f32⟩
  | .hbm, ⟨22, _⟩ => ⟨S_, .i32⟩
  | .hbm, ⟨23, _⟩ => ⟨S_, .f32⟩
  | .hbm, ⟨24, _⟩ => ⟨S100352, .f32⟩
  | .hbm, ⟨25, _⟩ => ⟨S1x100352, .f32⟩
  | .hbm, ⟨26, _⟩ => ⟨S2048x512, .bf16⟩
  | .hbm, ⟨27, _⟩ => ⟨S100352x512, .bf16⟩
  | .hbm, ⟨28, _⟩ => ⟨S2048x100352, .f32⟩
  | .hbm, ⟨29, _⟩ => ⟨S2048x100000, .f32⟩
  | .local _ .vmem, ⟨0, _⟩ => ⟨S1024x512, .bf16⟩
  | .local _ .vmem, ⟨1, _⟩ => ⟨S1024x512, .bf16⟩
  | .local _ .vmem, ⟨2, _⟩ => ⟨S2048x512, .bf16⟩
  | .local _ .vmem, ⟨3, _⟩ => ⟨S2048x512, .bf16⟩
  | .local _ .vmem, ⟨4, _⟩ => ⟨S1x2048, .f32⟩
  | .local _ .vmem, ⟨5, _⟩ => ⟨S1x2048, .f32⟩
  | .local _ .vmem, ⟨6, _⟩ => ⟨S1024x2048, .f32⟩
  | .local _ .vmem, ⟨7, _⟩ => ⟨S1024x2048, .f32⟩
  | _, _ => ⟨S2048x8, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_call0_v0 : Ref sig .tc := ⟨.hbm, 20, rfl⟩
abbrev main_v12 : Ref sig .tc := ⟨.hbm, 21, rfl⟩
abbrev main_c_2 : Ref sig .tc := ⟨.hbm, 22, rfl⟩
abbrev main_call1_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 49], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S64x100000_S100000x64_1_0 : S64x100000.Transposes [1, 0] S100000x64
  bcast_S_S2048x8 : S_.BroadcastsInDim S2048x8 (![] : Fin 0 → Fin S2048x8.rank)
  bcast_S2048x8_S2048x8x1_0_1 : S2048x8.BroadcastsInDim S2048x8x1 (![0, 1] : Fin 2 → Fin S2048x8x1.rank)
  bcast_S64_S1x1x64_2 : S64.BroadcastsInDim S1x1x64 (![2] : Fin 1 → Fin S1x1x64.rank)
  bcast_S1x1x64_S2048x8x64_0_1_2 : S1x1x64.BroadcastsInDim S2048x8x64 (![0, 1, 2] : Fin 3 → Fin S2048x8x64.rank)
  shapeCasts_S2048x8x64_S2048x512 : S2048x8x64.ShapeCasts S2048x512
  pads_S100000x512_S100352x512_03520_000 : S100000x512.Pads (![0, 0] : Fin 2 → Nat) ![352, 0] ![0, 0] S100352x512
  h_S_ : 0 < S_.numel
  pads_S100000_S100352_03520 : S100000.Pads (![0] : Fin 1 → Nat) ![352] ![0] S100352
  shapeCasts_S100352_S1x100352 : S100352.ShapeCasts S1x100352
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  inb_S1024x2048_S1024x2048_0_0 : ∀ a, (![0, 0] : Fin 2 → Nat) a + S1024x2048.size a ≤ S1024x2048.size a
  h_S1024x2048 : 0 < S1024x2048.numel
  slices_S2048x100352_S2048x100000_0_0 : S2048x100352.Slices ![0, 0] S2048x100000
  gather_S100000x64_S2048x8x1_S2048x8x64_2_0_n_n_0_2_164_wf : GatherDims.WF S100000x64 S2048x8x1 S2048x8x64 [2] [0] [] [0] [] 2 ![1, 64]
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S2048x512.size a
  hwx0_0 : ∀ i : grid0.Coords, EltTy.bits .bf16 = 32 ∨ (Rect.block (s := S2048x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S100352x512.size a
  hwx0_1 : ∀ i : grid0.Coords, EltTy.bits .bf16 = 32 ∨ (Rect.block (s := S100352x512) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x100352.size a
  hwx0_2 : ∀ i : grid0.Coords, EltTy.bits .f32 = 32 ∨ (Rect.block (s := S1x100352) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S2048x100352.size a
  hwx0_3 : ∀ i : grid0.Coords, EltTy.bits .f32 = 32 ∨ (Rect.block (s := S2048x100352) S1024x2048.size (cc0_transform_3 i) (hinb0_3 i)).WholeWords (EltTy.packing .f32)

variable [Facts₀]

def gather_S100000x64_S2048x8x1_S2048x8x64_2_0_n_n_0_2_164 : GatherDims S100000x64 S2048x8x1 S2048x8x64 where
  offsetDims := [2]
  collapsedSliceDims := [0]
  operandBatchingDims := []
  startIndicesBatchingDims := []
  startIndexMap := [0]
  indexVectorDim := 2
  sliceSizes := ![1, 64]
  wf := gather_S100000x64_S2048x8x1_S2048x8x64_2_0_n_n_0_2_164_wf
def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_v15) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x8 : Shape := ⟨2, ![2048, 8]⟩
abbrev S64x100000 : Shape := ⟨2, ![64, 100000]⟩
abbrev S64 : Shape := ⟨1, ![64]⟩
abbrev S100000x512 : Shape := ⟨2, ![100000, 512]⟩
abbrev S100000 : Shape := ⟨1, ![100000]⟩
abbrev S100000x64 : Shape := ⟨2, ![100000, 64]⟩
abbrev S_ : Shape := ⟨0, ![]⟩
abbrev S2048x8x1 : Shape := ⟨3, ![2048, 8, 1]⟩
abbrev S2048x8x64 : Shape := ⟨3, ![2048, 8, 64]⟩
abbrev S1x1x64 : Shape := ⟨3, ![1, 1, 64]⟩
abbrev S2048x512 : Shape := ⟨2, ![2048, 512]⟩
abbrev S512x100000 : Shape := ⟨2, ![512, 100000]⟩
abbrev S2048x100000 : Shape := ⟨2, ![2048, 100000]⟩
abbrev S1x100000 : Shape := ⟨2, ![1, 100000]⟩

abbrev nBuf : Space → Nat
  | .hbm => 24
  | .vmem => 0
  | .smem => 0
  | _ => 0

abbrev bufTy : (tb : Table) → Fin (tcTables nBuf tb) → BufTy
  | .hbm, ⟨0, _⟩ => ⟨S2048x8, .i32⟩
  | .hbm, ⟨1, _⟩ => ⟨S64x100000, .f32⟩
  | .hbm, ⟨2, _⟩ => ⟨S64, .f32⟩
  | .hbm, ⟨3, _⟩ => ⟨S100000x512, .f32⟩
  | .hbm, ⟨4, _⟩ => ⟨S100000, .f32⟩
  | .hbm, ⟨5, _⟩ => ⟨S100000x64, .f32⟩
  | .hbm, ⟨6, _⟩ => ⟨S_, .i32⟩
  | .hbm, ⟨7, _⟩ => ⟨S2048x8, .i32⟩
  | .hbm, ⟨8, _⟩ => ⟨S2048x8, .i1⟩
  | .hbm, ⟨9, _⟩ => ⟨S_, .i32⟩
  | .hbm, ⟨10, _⟩ => ⟨S2048x8, .i32⟩
  | .hbm, ⟨11, _⟩ => ⟨S2048x8, .i32⟩
  | .hbm, ⟨12, _⟩ => ⟨S2048x8, .i32⟩
  | .hbm, ⟨13, _⟩ => ⟨S2048x8x1, .i32⟩
  | .hbm, ⟨14, _⟩ => ⟨S2048x8x64, .f32⟩
  | .hbm, ⟨15, _⟩ => ⟨S1x1x64, .f32⟩
  | .hbm, ⟨16, _⟩ => ⟨S2048x8x64, .f32⟩
  | .hbm, ⟨17, _⟩ => ⟨S2048x8x64, .f32⟩
  | .hbm, ⟨18, _⟩ => ⟨S2048x512, .f32⟩
  | .hbm, ⟨19, _⟩ => ⟨S512x100000, .f32⟩
  | .hbm, ⟨20, _⟩ => ⟨S2048x100000, .f32⟩
  | .hbm, ⟨21, _⟩ => ⟨S1x100000, .f32⟩
  | .hbm, ⟨22, _⟩ => ⟨S2048x100000, .f32⟩
  | .hbm, ⟨23, _⟩ => ⟨S2048x100000, .f32⟩
  | _, _ => ⟨S2048x8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  transposes_S64x100000_S100000x64_1_0 : S64x100000.Transposes [1, 0] S100000x64
  bcast_S_S2048x8 : S_.BroadcastsInDim S2048x8 (![] : Fin 0 → Fin S2048x8.rank)
  bcast_S2048x8_S2048x8x1_0_1 : S2048x8.BroadcastsInDim S2048x8x1 (![0, 1] : Fin 2 → Fin S2048x8x1.rank)
  bcast_S64_S1x1x64_2 : S64.BroadcastsInDim S1x1x64 (![2] : Fin 1 → Fin S1x1x64.rank)
  bcast_S1x1x64_S2048x8x64_0_1_2 : S1x1x64.BroadcastsInDim S2048x8x64 (![0, 1, 2] : Fin 3 → Fin S2048x8x64.rank)
  shapeCasts_S2048x8x64_S2048x512 : S2048x8x64.ShapeCasts S2048x512
  transposes_S100000x512_S512x100000_1_0 : S100000x512.Transposes [1, 0] S512x100000
  bcast_S100000_S1x100000_1 : S100000.BroadcastsInDim S1x100000 (![1] : Fin 1 → Fin S1x100000.rank)
  bcast_S1x100000_S2048x100000_0_1 : S1x100000.BroadcastsInDim S2048x100000 (![0, 1] : Fin 2 → Fin S2048x100000.rank)
  gather_S100000x64_S2048x8x1_S2048x8x64_2_0_n_n_0_2_164_wf : GatherDims.WF S100000x64 S2048x8x1 S2048x8x64 [2] [0] [] [0] [] 2 ![1, 64]
  dot_S2048x512_S512x100000_S2048x100000_1_0_0_1_n_n_wf : DotDims.WF S2048x512 S512x100000 S2048x100000 [1] [0] [0] [1] [] []

variable [Facts₀]

def gather_S100000x64_S2048x8x1_S2048x8x64_2_0_n_n_0_2_164 : GatherDims S100000x64 S2048x8x1 S2048x8x64 where
  offsetDims := [2]
  collapsedSliceDims := [0]
  operandBatchingDims := []
  startIndicesBatchingDims := []
  startIndexMap := [0]
  indexVectorDim := 2
  sliceSizes := ![1, 64]
  wf := gather_S100000x64_S2048x8x1_S2048x8x64_2_0_n_n_0_2_164_wf
def dot_S2048x512_S512x100000_S2048x100000_1_0_0_1_n_n : DotDims S2048x512 S512x100000 S2048x100000 where
  lhsContracting := [1]
  rhsContracting := [0]
  lhsNonContracting := [0]
  rhsNonContracting := [1]
  lhsBatch := []
  rhsBatch := []
  wf := dot_S2048x512_S512x100000_S2048x100000_1_0_0_1_n_n_wf

class Facts : Prop extends Facts₀ where

variable [Facts]
-- ==== Proof.Spec.lean ====
/-
  The function both programs compute.

  From an embedding matrix `E : [2048, 512]` (one row per batch entry: the eight context embeddings laid
  side by side), the weight matrix `W : [100000, 512]` and the bias `b : [100000]`, the logits are

      logits E W b (r, v) = (∑ k < 512, E[r, k] · W[v, k]) + b[v].

  Everything is over the extended reals; no law beyond the definitions is used, so nothing here needs
  the inputs to be finite.
-/
import Idealize.ShloMosaic.PureOps.Ideal
import Idealize.ShloMosaic.Lib.ValueIdx

noncomputable section

namespace Cert.Spec

open Idealize.ShloMosaic Idealize.ShloMosaic.ValueIdx

/-- The fully connected layer on the flattened embeddings: row `r` of `E` against row `v` of `W`, plus `b[v]`. -/
def logits (E : (⟨2, ![2048, 512]⟩ : Shape).Idx → EReal) (W : (⟨2, ![100000, 512]⟩ : Shape).Idx → EReal)
    (b : (⟨1, ![100000]⟩ : Shape).Idx → EReal) : (⟨2, ![2048, 100000]⟩ : Shape).Idx → EReal :=
  fun i => (∑ k : Fin 512, E (ix2 (i 0) k) * W (ix2 (i 1) k)) + b (ix1 (i 1))

/-- The same read at coordinates. -/
theorem logits_apply (E : (⟨2, ![2048, 512]⟩ : Shape).Idx → EReal) (W : (⟨2, ![100000, 512]⟩ : Shape).Idx → EReal)
    (b : (⟨1, ![100000]⟩ : Shape).Idx → EReal) (r : Fin 2048) (v : Fin 100000) :
    logits E W b (ix2 r v) = (∑ k : Fin 512, E (ix2 r k) * W (ix2 v k)) + b (ix1 v) := rfl

end Cert.Spec

end
-- ==== Proof.Entry.lean ====
/-
  What the kernel finds in its three input arrays when it is launched.

  Before the launch the program computes, on the host, the flattened embeddings (the embedding table
  transposed, its rows looked up at the context words, the embedding bias added, the eight lookups of a
  batch entry laid side by side), pads the weight matrix with 352 rows of zeros and the bias with 352
  zeros, recasts the padded bias as one row, and narrows embeddings and weights to bf16.  This file reads
  those three arrays off the program's text.
-/
import proofs.«151036_j81913616270225_1_alg».proof.Proof.Gen.KernelIdeal.Frame
import Idealize.ShloMosaic.Lib.StableHlo.Run

noncomputable section

namespace Cert.KernelIdeal.Entry

open Cert.KernelIdeal Cert.KernelIdeal.Gen Idealize.ShloMosaic Idealize.ShloMosaic.TcCoe Idealize.SL.Sem Idealize.ShloMosaic.StableHlo

variable {F : FTy → Type} [FloatOps F]

/-- The flattened embeddings as the host lines compute them from the context words `x0`, the embedding
    table `x1` and the embedding bias `x2`. -/
def embed (x0 : (⟨S2048x8, .i32⟩ : BufTy).Contents (Elt F)) (x1 : (⟨S64x100000, .f32⟩ : BufTy).Contents (Elt F))
    (x2 : (⟨S64, .f32⟩ : BufTy).Contents (Elt F)) : (⟨S2048x512, .f32⟩ : BufTy).Contents (Elt F) :=
  shapeCast _ (addf (Host.gather gather_S100000x64_S2048x8x1_S2048x8x64_2_0_n_n_0_2_164 (transpose S100000x64 [1, 0] x1 transposes_S64x100000_S100000x64_1_0) (broadcastInDim S2048x8x1 ![0, 1] bcast_S2048x8_S2048x8x1_0_1 (select (cmpi .slt x0 (broadcastInDim S2048x8 ![] bcast_S_S2048x8 (constantI S_ 32 0#32))) (addi x0 (broadcastInDim S2048x8 ![] bcast_S_S2048x8 (constantI S_ 32 100000#32))) x0))) (broadcastInDim S2048x8x64 ![0, 1, 2] bcast_S1x1x64_S2048x8x64_0_1_2 (broadcastInDim S1x1x64 ![2] bcast_S64_S1x1x64_2 x2))) shapeCasts_S2048x8x64_S2048x512

/-- The weight matrix with 352 rows of the padding value appended. -/
def paddedWeights (x3 : (⟨S100000x512, .f32⟩ : BufTy).Contents (Elt F)) : (⟨S100352x512, .f32⟩ : BufTy).Contents (Elt F) :=
  pad S100352x512 ![0, 0] ![352, 0] ![0, 0] x3 (sitofp (F := F) .f32 (constantI S_ 32 0#32)) pads_S100000x512_S100352x512_03520_000 h_S_

/-- The bias with 352 entries of the padding value appended. -/
def paddedBias (x4 : (⟨S100000, .f32⟩ : BufTy).Contents (Elt F)) : (⟨S100352, .f32⟩ : BufTy).Contents (Elt F) :=
  pad S100352 ![0] ![352] ![0] x4 (sitofp (F := F) .f32 (constantI S_ 32 0#32)) pads_S100000_S100352_03520 h_S_

variable (m : (ℓ : Loc nD τ sig) → Buf (Elt F) ℓ)

/-- The first input array: the flattened embeddings, narrowed. -/
theorem V_embed (c : Dev nD) :
    (V m c main_v15 : (⟨S2048x512, .bf16⟩ : BufTy).Contents (Elt F))
      = truncf .bf16 (embed (m ((c : Thread nD τ).loc main_arg0)) (m ((c : Thread nD τ).loc main_arg1)) (m ((c : Thread nD τ).loc main_arg2))) bitsLt_bf16_f32 := by
  dsimp only [V, V0]
  simp only [hostOps0, hostOps0_1, hostOps0_2, hostOps0_3, hostOps0_4, List.flatten_cons, List.flatten_nil, List.append_nil, List.cons_append,
    List.nil_append]
  after_results
  rfl

/-- The second input array: the padded weights, narrowed. -/
theorem V_weights (c : Dev nD) :
    (V m c main_v16 : (⟨S100352x512, .bf16⟩ : BufTy).Contents (Elt F))
      = truncf .bf16 (paddedWeights (m ((c : Thread nD τ).loc main_arg3))) bitsLt_bf16_f32 := by
  dsimp only [V, V0]
  simp only [hostOps0, hostOps0_1, hostOps0_2, hostOps0_3, hostOps0_4, List.flatten_cons, List.flatten_nil, List.append_nil, List.cons_append,
    List.nil_append]
  after_results
  rfl

/-- The third input array: the padded bias as one row. -/
theorem V_bias (c : Dev nD) :
    (V m c main_v14 : (⟨S1x100352, .f32⟩ : BufTy).Contents (Elt F))
      = shapeCast S1x100352 (paddedBias (m ((c : Thread nD τ).loc main_arg4))) shapeCasts_S100352_S1x100352 := by
  dsimp only [V, V0]
  simp only [hostOps0, hostOps0_1, hostOps0_2, hostOps0_3, hostOps0_4, List.flatten_cons, List.flatten_nil, List.append_nil, List.cons_append,
    List.nil_append]
  after_results
  rfl

end Cert.KernelIdeal.Entry

end
-- ==== Proof.LibMatmulRowsByRows.lean ====
/-
  A product of two matrices that share their SECOND axis, read at an entry.

  For `lhs : [n, K]` and `rhs : [d, K]`, contracted over the second axis of both (the product of `lhs`
  with the transpose of `rhs`), accumulated into the all-zero matrix: at the ideal instance entry `(r, c)`
  of the result is the sum over `k` of `lhs[r, k] · rhs[c, k]`.  Any sizes, any operand formats, any
  precision.  The four hypotheses name the coordinates of the two operand indices at an output index and
  a contraction index; for a printed dimension record two of them come from unfolding the index maps and
  two from the library's facts about a single contracted axis.
-/
import Idealize.ShloMosaic.PureOps.Ideal.Laws
import Idealize.ShloMosaic.Lib.ValueIdx

noncomputable section

namespace Cert.Lib.RowsByRows

open Idealize.ShloMosaic Idealize.ShloMosaic.ValueIdx

/-- `lhs · rhsᵀ` into the zero accumulator at entry `(r, c)`: the sum over the shared axis of the
    products of row `r` of `lhs` with row `c` of `rhs`. -/
theorem matmul_zero_at {n K d : Nat} {φ₁ φ₂ : FTy}
    (D : DotDims ⟨2, ![n, K]⟩ ⟨2, ![d, K]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (j 1).val)
    (hr1 : ∀ j q, (D.rhsIdx j q 1).val = (q ⟨0, by omega⟩).val)
    (prec : Option ContractPrecision)
    (lhs : FVec Ideal ⟨2, ![n, K]⟩ φ₁) (rhs : FVec Ideal ⟨2, ![d, K]⟩ φ₂) (r : Fin n) (c : Fin d) :
    FloatOps.matmul D prec lhs rhs (constant (F := Ideal) ⟨2, ![n, d]⟩ .f32 0x00000000#32) (ix2 r c)
      = ∑ k : Fin K, lhs (ix2 r k) * rhs (ix2 c k) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 c k := funext fun a => Fin.ext (by
    match a with
    | ⟨0, _⟩ => exact hr0 _ _
    | ⟨1, _⟩ => exact (hr1 _ _).trans hk)
  rw [el, er]

end Cert.Lib.RowsByRows

end
-- ==== Proof.Payload.lean ====
/-
  The kernel body's one stored value, read at an entry.

  At a grid point the body loads a block `x0 : [1024, 512]` of the embeddings, a block `x1 : [2048, 512]`
  of the (padded) weights and a block `x2 : [1, 2048]` of the (padded) bias, and stores
  `x0 · x1ᵀ + x2` (the bias row repeated down the 1024 rows).  At the ideal instance entry `(p, q)` of
  that value is `(∑ k < 512, x0[p, k] · x1[q, k]) + x2[0, q]`.
-/
import proofs.«151036_j81913616270225_1_alg».proof.Proof.Gen.KernelIdeal.Skeleton
import proofs.«151036_j81913616270225_1_alg».proof.Proof.LibMatmulRowsByRows
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx

/-- The left operand's row coordinate is the output's row. -/
theorem lhs_row (j : S1024x2048.Idx) (q : dot_S1024x512_S2048x512_S1024x2048_1_1_0_0_n_n.contr.Idx) :
    (dot_S1024x512_S2048x512_S1024x2048_1_1_0_0_n_n.lhsIdx j q 0).val = (j 0).val := by
  unfold DotDims.lhsIdx
  rw [dif_neg (show ¬(0 : Fin S1024x512.rank) ∈ dot_S1024x512_S2048x512_S1024x2048_1_1_0_0_n_n.lhsBatch by decide),
    dif_pos (show (0 : Fin S1024x512.rank) ∈ dot_S1024x512_S2048x512_S1024x2048_1_1_0_0_n_n.lhsNonContracting by decide)]
  rfl
/-- The left operand's column coordinate is the contraction index. -/
theorem lhs_col (j : S1024x2048.Idx) (q : dot_S1024x512_S2048x512_S1024x2048_1_1_0_0_n_n.contr.Idx) :
    (dot_S1024x512_S2048x512_S1024x2048_1_1_0_0_n_n.lhsIdx j q 1).val = (q ⟨0, by decide⟩).val :=
  dot_S1024x512_S2048x512_S1024x2048_1_1_0_0_n_n.lhsIdx_val_of_single rfl j q
/-- The right operand's row coordinate is the output's column. -/
theorem rhs_row (j : S1024x2048.Idx) (q : dot_S1024x512_S2048x512_S1024x2048_1_1_0_0_n_n.contr.Idx) :
    (dot_S1024x512_S2048x512_S1024x2048_1_1_0_0_n_n.rhsIdx j q 0).val = (j 1).val := by
  unfold DotDims.rhsIdx
  rw [dif_neg (show ¬(0 : Fin S2048x512.rank) ∈ dot_S1024x512_S2048x512_S1024x2048_1_1_0_0_n_n.rhsBatch by decide),
    dif_pos (show (0 : Fin S2048x512.rank) ∈ dot_S1024x512_S2048x512_S1024x2048_1_1_0_0_n_n.rhsNonContracting by decide)]
  rfl
/-- The right operand's column coordinate is the contraction index. -/
theorem rhs_col (j : S1024x2048.Idx) (q : dot_S1024x512_S2048x512_S1024x2048_1_1_0_0_n_n.contr.Idx) :
    (dot_S1024x512_S2048x512_S1024x2048_1_1_0_0_n_n.rhsIdx j q 1).val = (q ⟨0, by decide⟩).val :=
  dot_S1024x512_S2048x512_S1024x2048_1_1_0_0_n_n.rhsIdx_val_of_single rfl j q

/-- The stored value at entry `(p, q)`: row `p` of the embedding block against row `q` of the weight block,
    plus the bias block's entry `q`. -/
theorem pay_at (x0 : Vec Ideal S1024x512 .bf16) (x1 : Vec Ideal S2048x512 .bf16) (x2 : Vec Ideal S1x2048 .f32)
    (p : Fin 1024) (q : Fin 2048) :
    k0_pay1 (F := Ideal) x0 x1 x2 (ix2 p q) = (∑ k : Fin 512, x0 (ix2 p k) * x1 (ix2 q k)) + x2 (ix2 (0 : Fin 1) q) := by
  unfold k0_pay1
  rw [addf_apply]
  refine congrArg₂ (· + ·) ?_ ?_
  · rw [shapeCast_self, shapeCast_self]
    exact Cert.Lib.RowsByRows.matmul_zero_at dot_S1024x512_S2048x512_S1024x2048_1_1_0_0_n_n rfl rfl
      lhs_row lhs_col rhs_row rhs_col none x0 x1 p q
  · rw [shapeCast_self]
    exact broadcastTo_1b_ab_apply x2 broadcasts_S1x2048_S1024x2048 p q

end Cert.KernelIdeal.Body

end
-- ==== Proof.Blocks.lean ====
/-
  From blocks to the whole array.

  The grid has 2 × 49 points; point (i, j) reads rows 1024·i … of the embeddings, rows 2048·j … of the
  padded weights and columns 2048·j … of the padded bias row, and writes back block (i, j) — 1024 rows
  by 2048 columns — of the [2048, 100352] result.  Every block is the restriction of ONE function of the
  three input arrays,

      product A B bias (r, v) = (∑ k < 512, A[r, k] · B[v, k]) + bias[0, v],

  and the 98 blocks tile the result, so after the run the result array is that function.
-/
import proofs.«151036_j81913616270225_1_alg».proof.Proof.Gen.KernelIdeal.Frame
import proofs.«151036_j81913616270225_1_alg».proof.Proof.Payload
import Idealize.ShloMosaic.Lib.Pipeline.Value

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The padded result as one function of the three arrays the kernel is launched on. -/
def product (A : Vec Ideal S2048x512 .bf16) (B : Vec Ideal S100352x512 .bf16) (bias : Vec Ideal S1x100352 .f32) :
    Vec Ideal S2048x100352 .f32 :=
  fun i => (∑ k : Fin 512, A (ix2 (i 0) k) * B (ix2 (i 1) k)) + bias (ix2 (0 : Fin 1) (i 1))

/-- The block indices at a point: the embeddings' row block is the output's row block, the weights' row block and the
    bias' column block are the output's column block, every other block index is zero; there are 2 row blocks and 49
    column blocks. -/
theorem idx_facts : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 1 ∧ win0_3.index t (1 : Fin 2) ≤ 48 :=
  (by decide +kernel : ∀ t : Fin grid0.N, _)

/-- Every output block is some point's. -/
theorem idx_onto : ∀ (q0 : Fin 2) (q1 : Fin 49), ∃ t : Fin cfg0.N, win0_3.index t = ![q0.val, q1.val] :=
  (by decide +kernel : ∀ (q0 : Fin 2) (q1 : Fin 49), ∃ t : Fin grid0.N, win0_3.index t = ![q0.val, q1.val])

/-- The embeddings' block at a point, read at an entry: the array at block index × block size + the entry. -/
theorem blk0_read (t : Fin cfg0.N) (X : Vec Ideal S2048x512 .bf16) (x : S1024x512.Idx) (i : S2048x512.Idx)
    (h0 : (i 0).val = win0_0.index t (0 : Fin 2) * 1024 + (x 0).val)
    (h1 : (i 1).val = win0_0.index t (1 : Fin 2) * 512 + (x 1).val) :
    ((cfg0.win 0).blk t).view.read (Elt Ideal) X x = X i := by
  rw [View.read_apply]
  show X _ = X i
  refine congrArg X (funext fun a => Fin.ext ?_)
  match a with
  | ⟨0, _⟩ => show win0_0.index t (0 : Fin 2) * 1024 + 1 * (x 0).val = (i 0).val; omega
  | ⟨1, _⟩ => show win0_0.index t (1 : Fin 2) * 512 + 1 * (x 1).val = (i 1).val; omega

/-- The weights' block at a point, read at an entry. -/
theorem blk1_read (t : Fin cfg0.N) (X : Vec Ideal S100352x512 .bf16) (x : S2048x512.Idx) (i : S100352x512.Idx)
    (h0 : (i 0).val = win0_1.index t (0 : Fin 2) * 2048 + (x 0).val)
    (h1 : (i 1).val = win0_1.index t (1 : Fin 2) * 512 + (x 1).val) :
    ((cfg0.win 1).blk t).view.read (Elt Ideal) X x = X i := by
  rw [View.read_apply]
  show X _ = X i
  refine congrArg X (funext fun a => Fin.ext ?_)
  match a with
  | ⟨0, _⟩ => show win0_1.index t (0 : Fin 2) * 2048 + 1 * (x 0).val = (i 0).val; omega
  | ⟨1, _⟩ => show win0_1.index t (1 : Fin 2) * 512 + 1 * (x 1).val = (i 1).val; omega

/-- The bias row's block at a point, read at an entry. -/
theorem blk2_read (t : Fin cfg0.N) (X : Vec Ideal S1x100352 .f32) (x : S1x2048.Idx) (i : S1x100352.Idx)
    (h0 : (i 0).val = win0_2.index t (0 : Fin 2) * 1 + (x 0).val)
    (h1 : (i 1).val = win0_2.index t (1 : Fin 2) * 2048 + (x 1).val) :
    ((cfg0.win 2).blk t).view.read (Elt Ideal) X x = X i := by
  rw [View.read_apply]
  show X _ = X i
  refine congrArg X (funext fun a => Fin.ext ?_)
  match a with
  | ⟨0, _⟩ => show win0_2.index t (0 : Fin 2) * 1 + 1 * (x 0).val = (i 0).val; omega
  | ⟨1, _⟩ => show win0_2.index t (1 : Fin 2) * 2048 + 1 * (x 1).val = (i 1).val; omega

/-- WHAT A POINT WRITES BACK is its block of `product` of the three arrays as launched: entry (p, q) of the block is
    the body's stored value there, whose three loaded blocks are the arrays read at the block's own rows and columns. -/
theorem flushed_eq (c : Dev nD) (t : Fin cfg0.N) :
    (dats m 0 c).flushed 3 t
      = ((cfg0.win 3).blk t).view.read (Elt Ideal) (product (V m c main_v15) (V m c main_v16) (V m c main_v14)) := by
  show (cfg0.win 3).cut (grid0.coords t) ((dats m 0 c).after 3 t) = _
  rw [after0_3]
  unfold out0_3
  rw [View.canon_unit_zero hz]
  simp only [View.ld_unit_zero (S := S1024x512) hz, View.ld_unit_zero (S := S2048x512) hz, View.ld_unit_zero (S := S1x2048) hz]
  obtain ⟨e0, e1, e2, e3, e4, e5, e6, e7⟩ := idx_facts t
  refine funext fun (j : S1024x2048.Idx) => ?_
  show k0_pay1 (iblk m c 0 t) (iblk m c 1 t) (iblk m c 2 t) j
    = product (V m c main_v15) (V m c main_v16) (V m c main_v14) (((cfg0.win 3).blk t).view.emb j)
  obtain ⟨p, q, rfl⟩ : ∃ (p : Fin 1024) (q : Fin 2048), j = ix2 p q := ⟨j 0, j 1, eq_ix2 j⟩
  refine (Cert.KernelIdeal.Body.pay_at (iblk m c 0 t) (iblk m c 1 t) (iblk m c 2 t) p q).trans ?_
  unfold product
  refine congrArg₂ (· + ·) (Finset.sum_congr rfl fun k _ => congrArg₂ (· * ·) ?_ ?_) ?_
  · exact blk0_read t (V m c main_v15) (ix2 p k) _
      (by show win0_3.index t (0 : Fin 2) * 1024 + 1 * p.val = win0_0.index t (0 : Fin 2) * 1024 + p.val; omega)
      (by show k.val = win0_0.index t (1 : Fin 2) * 512 + k.val; omega)
  · exact blk1_read t (V m c main_v16) (ix2 q k) _
      (by show win0_3.index t (1 : Fin 2) * 2048 + 1 * q.val = win0_1.index t (0 : Fin 2) * 2048 + q.val; omega)
      (by show k.val = win0_1.index t (1 : Fin 2) * 512 + k.val; omega)
  · exact blk2_read t (V m c main_v14) (ix2 (0 : Fin 1) q) _
      (by show 0 = win0_2.index t (0 : Fin 2) * 1 + 0; omega)
      (by show win0_3.index t (1 : Fin 2) * 2048 + 1 * q.val = win0_2.index t (1 : Fin 2) * 2048 + q.val; omega)

/-- An index of the result is in point `t`'s block iff each coordinate is in the block's range on its axis. -/
theorem mem_blk (t : Fin cfg0.N) (i : S2048x100352.Idx) :
    i ∈ ((cfg0.win 3).blk t).view.set ↔ ∀ a : Fin 2, win0_3.index t a * S1024x2048.size a ≤ (i a).val ∧ (i a).val < win0_3.index t a * S1024x2048.size a + S1024x2048.size a := by
  show i ∈ ((View.whole main_v17).slice (win0_3.rect t)).set ↔ _
  rw [View.set_slice_whole, Rect.mem_set_unit]
  exact Iff.rfl

/-- The blocks tile the result: entry (r, v) is in the block of the point with row block r / 1024 and column block v / 2048. -/
theorem cover (i : S2048x100352.Idx) :
    ∃ t : Fin cfg0.N, (cfg0.win 3).flush t = true ∧ i ∈ ((cfg0.win 3).blk t).view.set := by
  have hi0 : (i 0).val < 2048 := (i 0).isLt
  have hi1 : (i 1).val < 100352 := (i 1).isLt
  obtain ⟨t, ht⟩ := idx_onto ⟨(i 0).val / 1024, by omega⟩ ⟨(i 1).val / 2048, by omega⟩
  have q0 : win0_3.index t (0 : Fin 2) = (i 0).val / 1024 := congrFun ht 0
  have q1 : win0_3.index t (1 : Fin 2) = (i 1).val / 2048 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 2048 ≤ (i 1).val ∧ (i 1).val < win0_3.index t (1 : Fin 2) * 2048 + 2048; omega

/-- THE RESULT ARRAY after the run is `product` of the three arrays as launched. -/
theorem final (c : Dev nD) :
    (dats m 0 c).arrAt 3 cfg0.N = product (V m c main_v15) (V m c main_v16) (V m c main_v14) :=
  (dats m 0 c).arrAt_eq_of_cover 3 _ (fun t _ => flushed_eq m c t) cover

end Cert.KernelIdeal.Blocks

end
-- ==== Proof.LibRowCast.lean ====
/-
  A vector recast as a one-row matrix, read at an entry.

  Recasting a vector of `n` entries to the shape `[1, n]` moves no entry: the one row's entry `k` is the
  vector's entry `k` (both sit at row-major position `k`).  Any length, any element type.
-/
import Idealize.ShloMosaic.Lib.ValueIdx
import Idealize.ShloMosaic.Lib.Pipeline.Value

noncomputable section

namespace Cert.Lib.RowCast

open Idealize.ShloMosaic Idealize.ShloMosaic.ValueIdx

/-- An `[n]` array cast to `[1, n]` reads, at `(0, k)`, the operand at `k`. -/
theorem shapeCast_n_1n_apply {α : Type} {n : ℕ} (x : (⟨1, ![n]⟩ : Shape).Idx → α)
    (h : (⟨1, ![n]⟩ : Shape).ShapeCasts ⟨2, ![1, n]⟩) (k : Fin n) :
    shapeCast ⟨2, ![1, n]⟩ x h (ix2 (0 : Fin 1) k) = x (ix1 k) :=
  shapeCast_apply x h _ _ (by
    rw [Shape.rowMajor_val_one, Shape.rowMajor_val_two]
    show k.val = 0 * n + k.val
    omega)

end Cert.Lib.RowCast

end
-- ==== Proof.KernelValue.lean ====
/-
  The kernel program's result.

  After the launch the program cuts the [2048, 100352] result down to its first 100000 columns.  Inside
  those columns the padded weights and the padded bias read the weights and the bias themselves (the
  padding sits in rows and entries 100000 … 100351, which the cut drops), and narrowing to bf16 changes
  nothing at the ideal instance.  So the program's result is `logits` of the flattened embeddings, the
  weights and the bias.
-/
import proofs.«151036_j81913616270225_1_alg».proof.Proof.Gen.KernelIdeal.Frame
import proofs.«151036_j81913616270225_1_alg».proof.Proof.Spec
import proofs.«151036_j81913616270225_1_alg».proof.Proof.Entry
import proofs.«151036_j81913616270225_1_alg».proof.Proof.Blocks
import proofs.«151036_j81913616270225_1_alg».proof.Proof.LibRowCast
import Idealize.ShloMosaic.Lib.StableHlo.Run
import Idealize.ShloMosaic.Lib.Pipeline.Value
import Idealize.ShloMosaic.Lib.ValueLayout
import Idealize.ShloMosaic.Lib.KernelVsHost

noncomputable section

namespace Cert.KernelIdeal.Whole

open Cert.KernelIdeal Cert.KernelIdeal.Gen Idealize.ShloMosaic Idealize.ShloMosaic.TcCoe Idealize.SL.Sem Idealize.ShloMosaic.StableHlo
open Idealize.ShloMosaic.ValueIdx
open Idealize.ShloMosaic.Pipeline (Dat)

variable (m : (ℓ : Loc nD τ sig) → Buf (Elt Ideal) ℓ) (ρ : Dev nD → PrngReg)

/-- The line after the launch: the program's result is the first 100000 columns of the launch's result array. -/
theorem tail (c : Dev nD) :
    (Pipeline.afterTail₀ cfgs (dats m) 0 (V0 m) [hostOps1] c main_v18 : (⟨S2048x100000, .f32⟩ : BufTy).Contents (Elt Ideal))
      = extractStridedSlice S2048x100000 ![0, 0] ((dats m 0 c).arrAt 3 cfg0.N) slices_S2048x100352_S2048x100000_0_0 := by
  unfold Pipeline.afterTail₀
  show StableHlo.after hostOps1 _ (Proc.devRef .tc main_v18) = _
  after_results
  exact congrArg (fun X => extractStridedSlice S2048x100000 ![0, 0] X slices_S2048x100352_S2048x100000_0_0)
    (Pipeline.withArrays_arr spec0 launch0.win.arr_inj c _ _ 3)

/-- The first input array at an entry: the flattened embeddings there (narrowing is the identity). -/
theorem embed_at (c : Dev nD) (r : Fin 2048) (k : Fin 512) :
    (V m c main_v15 : Vec Ideal S2048x512 .bf16) (ix2 r k)
      = Entry.embed (m ((c : Thread nD τ).loc main_arg0)) (m ((c : Thread nD τ).loc main_arg1)) (m ((c : Thread nD τ).loc main_arg2)) (ix2 r k) := by
  rw [Entry.V_embed]
  rfl

/-- The second input array at an entry of its first 100000 rows: the weights there. -/
theorem weights_at (c : Dev nD) (v : Fin 100352) (hv : v.val < 100000) (k : Fin 512) :
    (V m c main_v16 : Vec Ideal S100352x512 .bf16) (ix2 v k)
      = (m ((c : Thread nD τ).loc main_arg3) : Vec Ideal S100000x512 .f32) (ix2 (⟨v.val, hv⟩ : Fin 100000) k) := by
  rw [Entry.V_weights]
  show Entry.paddedWeights (m ((c : Thread nD τ).loc main_arg3)) (ix2 v k) = _
  unfold Entry.paddedWeights
  exact pad_apply_of_inside _ _ _ _ _ _ _ (ix2 v k) (ix2 (⟨v.val, hv⟩ : Fin 100000) k) (fun a => by
    match a with
    | ⟨0, _⟩ => show v.val = 0 + v.val * (0 + 1); omega
    | ⟨1, _⟩ => show k.val = 0 + k.val * (0 + 1); omega)

/-- The third input array at one of its first 100000 columns: the bias there. -/
theorem bias_at (c : Dev nD) (v : Fin 100352) (hv : v.val < 100000) :
    (V m c main_v14 : Vec Ideal S1x100352 .f32) (ix2 (0 : Fin 1) v)
      = (m ((c : Thread nD τ).loc main_arg4) : Vec Ideal S100000 .f32) (ix1 (⟨v.val, hv⟩ : Fin 100000)) := by
  rw [Entry.V_bias]
  refine (Cert.Lib.RowCast.shapeCast_n_1n_apply _ shapeCasts_S100352_S1x100352 v).trans ?_
  unfold Entry.paddedBias
  exact pad_apply_of_inside _ _ _ _ _ _ _ (ix1 v) (ix1 (⟨v.val, hv⟩ : Fin 100000)) (fun a => by
    match a with
    | ⟨0, _⟩ => show v.val = 0 + v.val * (0 + 1); omega)

/-- The cut result is `logits` of the flattened embeddings, the weights and the bias. -/
theorem cut_product (c : Dev nD) :
    extractStridedSlice S2048x100000 ![0, 0] (Blocks.product (V m c main_v15) (V m c main_v16) (V m c main_v14)) slices_S2048x100352_S2048x100000_0_0
      = Cert.Spec.logits (Entry.embed (m ((c : Thread nD τ).loc main_arg0)) (m ((c : Thread nD τ).loc main_arg1)) (m ((c : Thread nD τ).loc main_arg2)))
          (m ((c : Thread nD τ).loc main_arg3)) (m ((c : Thread nD τ).loc main_arg4)) := by
  funext i
  obtain ⟨r, v, rfl⟩ : ∃ (r : Fin 2048) (v : Fin 100000), i = ix2 r v := ⟨i 0, i 1, eq_ix2 i⟩
  have hv : v.val < 100352 := by have := v.isLt; omega
  refine (slice2_axis1_apply 0 _ slices_S2048x100352_S2048x100000_0_0 r v (⟨v.val, hv⟩ : Fin 100352) (by show v.val = 0 + v.val; omega)).trans ?_
  rw [Cert.Spec.logits_apply]
  unfold Blocks.product
  refine congrArg₂ (· + ·) (Finset.sum_congr rfl fun k _ => congrArg₂ (· * ·) ?_ ?_) ?_
  · exact embed_at m c r k
  · exact weights_at m c ⟨v.val, hv⟩ v.isLt k
  · exact bias_at m c ⟨v.val, hv⟩ v.isLt

/-- THE RUN, READ: every weakly fair execution of the kernel program terminates with its result at `logits` of the
    flattened embeddings, the weights and the bias, and its arguments as launched. -/
theorem run : θ_run defs (onTc (τ := τ) (main (F := Ideal))) ⟨m, fun _ => 0, ρ⟩ fun r => ∀ c : Dev nD,
      r.2.mem ((c.tc : Thread nD τ).loc main_v18)
        = Cert.Spec.logits (Entry.embed (m ((c : Thread nD τ).loc main_arg0)) (m ((c : Thread nD τ).loc main_arg1)) (m ((c : Thread nD τ).loc main_arg2)))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (run_main m ρ)
  refine ⟨?_,
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c)⟩
  refine ((h c).2 main_v18 (Pipeline.mem_restRefs_of main_v18 (by decide) (by decide))).trans ?_
  refine (tail m c).trans ?_
  rw [Blocks.final]
  exact cut_product m c

end Cert.KernelIdeal.Whole

end
-- ==== Proof.RefValue.lean ====
/-
  The reference computes `logits` of its own flattened embeddings.

  Read one operation at a time, entry `(r, v)` of the reference's result is the product of the
  embeddings with the transposed weights at `(r, v)` — the sum over `k` of `E[r, k] · Wᵀ[k, v]`, and
  `Wᵀ[k, v] = W[v, k]` — plus the bias made a row and repeated down the rows, which reads `b[v]`.
-/
import proofs.«151036_j81913616270225_1_alg».proof.Proof.Gen.ReferenceIdeal.Read
import proofs.«151036_j81913616270225_1_alg».proof.Proof.Spec

noncomputable section

namespace Cert.ReferenceIdeal.RefValue

open Cert.ReferenceIdeal Cert.ReferenceIdeal.Read Idealize.ShloMosaic Idealize.ShloMosaic.ValueIdx

/-- The reference's result is `logits` of its flattened embeddings, the weights and the bias. -/
theorem result_eq (x0 : (⟨S2048x8, .i32⟩ : BufTy).Contents (Elt Ideal)) (x1 : (⟨S64x100000, .f32⟩ : BufTy).Contents (Elt Ideal))
    (x2 : (⟨S64, .f32⟩ : BufTy).Contents (Elt Ideal)) (x3 : (⟨S100000x512, .f32⟩ : BufTy).Contents (Elt Ideal))
    (x4 : (⟨S100000, .f32⟩ : BufTy).Contents (Elt Ideal)) :
    val_main_v16 (F := Ideal) x0 x1 x2 x3 x4 = Cert.Spec.logits (val_main_v11 (F := Ideal) x0 x1 x2) x3 x4 := by
  funext i
  rw [val_main_v16_apply, val_main_v13_apply, val_main_v15_apply, val_main_v14_apply]
  show (∑ k : Fin 512, _) + _ = (∑ k : Fin 512, _) + _
  refine congrArg₂ (· + ·) (Finset.sum_congr rfl fun k _ => congrArg₂ (· * ·) ?_ ?_) ?_
  · exact congrArg (val_main_v11 (F := Ideal) x0 x1 x2) (funext fun a => Fin.ext (by
      match a with
      | ⟨0, _⟩ => rfl
      | ⟨1, _⟩ => rfl))
  · rw [val_main_v12_apply]
    exact congrArg x3 (funext fun a => Fin.ext (by
      match a with
      | ⟨0, _⟩ => rfl
      | ⟨1, _⟩ => rfl))
  · exact congrArg x4 (funext fun a => Fin.ext (by
      match a with
      | ⟨0, _⟩ => rfl))

end Cert.ReferenceIdeal.RefValue

end
-- ==== Proof.lean ====
/-
  Both programs compute a fully connected layer on looked-up embeddings:

      out[r, v] = (∑ k < 512, E[r, k] · W[v, k]) + b[v],        r < 2048, v < 100000,

  where row `r` of `E` holds the eight context embeddings of batch entry `r` side by side (each a row of the
  transposed embedding table plus the embedding bias).  Both programs compute `E` by the same host lines.

  The reference multiplies `E` by the transposed weights and adds the bias as a repeated row.  The kernel
  program pads the weights and the bias to 100352 = 49 · 2048 rows and entries, narrows `E` and the padded
  weights to bf16 (the identity on extended reals), runs a 2 × 49 grid whose point (i, j) writes the block
  `E[1024 i …] · Wpad[2048 j …]ᵀ + bpad[2048 j …]` of a [2048, 100352] array, and cuts that array back to its
  first 100000 columns, where the padding is never read.  Entry by entry the two results are the same sum
  of the same 512 products plus the same bias entry, in the same order: no law of arithmetic is needed, so
  the finiteness of the inputs is never used.

  The modules: `Spec` (the function `logits`), `Payload` (the kernel body's stored value at an entry),
  `Entry` (the arrays the kernel is launched on), `Blocks` (the launch's result array as one function),
  `KernelValue` (the kernel program's run, read), `RefValue` (the reference's result is `logits`).
  The frames of the two kernel programs and the reference's run are the imported generated modules.
-/
import proofs.«151036_j81913616270225_1_alg».proof.Defs
import proofs.«151036_j81913616270225_1_alg».proof.Proof.Gen.Kernel
import proofs.«151036_j81913616270225_1_alg».proof.Proof.Gen.Kernel.Skeleton
import proofs.«151036_j81913616270225_1_alg».proof.Proof.Gen.Kernel.Launch
import proofs.«151036_j81913616270225_1_alg».proof.Proof.Gen.Kernel.Points
import proofs.«151036_j81913616270225_1_alg».proof.Proof.Gen.Kernel.Frame
import proofs.«151036_j81913616270225_1_alg».proof.Proof.Gen.KernelIdeal
import proofs.«151036_j81913616270225_1_alg».proof.Proof.Gen.KernelIdeal.Skeleton
import proofs.«151036_j81913616270225_1_alg».proof.Proof.Gen.KernelIdeal.Launch
import proofs.«151036_j81913616270225_1_alg».proof.Proof.Gen.KernelIdeal.Points
import proofs.«151036_j81913616270225_1_alg».proof.Proof.Gen.KernelIdeal.Frame
import proofs.«151036_j81913616270225_1_alg».proof.Proof.Gen.ReferenceIdeal
import proofs.«151036_j81913616270225_1_alg».proof.Proof.Gen.ReferenceIdeal.Run
import proofs.«151036_j81913616270225_1_alg».proof.Proof.Gen.ReferenceIdeal.Read
import proofs.«151036_j81913616270225_1_alg».proof.Proof.Gen.Pre_finite_inputs
import proofs.«151036_j81913616270225_1_alg».proof.Proof.KernelValue
import proofs.«151036_j81913616270225_1_alg».proof.Proof.RefValue
import Idealize.ShloMosaic.Adequacy
import Idealize.ShloMosaic.Init

noncomputable section

namespace Cert.Proof

open Idealize.ShloMosaic Idealize.SL.Sem

/-- The two programs spell the flattened embeddings with the same host operations. -/
theorem embed_eq (x0 : (⟨Cert.KernelIdeal.S2048x8, .i32⟩ : BufTy).Contents (Elt Ideal))
    (x1 : (⟨Cert.KernelIdeal.S64x100000, .f32⟩ : BufTy).Contents (Elt Ideal))
    (x2 : (⟨Cert.KernelIdeal.S64, .f32⟩ : BufTy).Contents (Elt Ideal)) :
    Cert.ReferenceIdeal.Read.val_main_v11 (F := Ideal) x0 x1 x2 = Cert.KernelIdeal.Entry.embed (F := Ideal) x0 x1 x2 := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both runs end with the result at `logits` of the flattened embeddings, the weights and the bias. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v16_eq _ _ _ _ _).trans ?_
  refine (Cert.ReferenceIdeal.RefValue.result_eq _ _ _ _ _).trans ?_
  rw [(hagree c).1, (hagree c).2.1, (hagree c).2.2.1, (hagree c).2.2.2.1, (hagree c).2.2.2.2, embed_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
